-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x128 .f32) (main_arg1 : IVec S2x1600000 32) (main_arg2 : FVec F S128x128 .f32) (main_arg3 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S1700000x128 : Shape := ⟨2, ![1700000, 128]⟩
abbrev S100352x128 : Shape := ⟨2, ![100352, 128]⟩
abbrev S100352x1 : Shape := ⟨2, ![100352, 1]⟩
abbrev S1x128 : Shape := ⟨2, ![1, 128]⟩
abbrev S2048x128 : Shape := ⟨2, ![2048, 128]⟩
abbrev S2048x1 : Shape := ⟨2, ![2048, 1]⟩

abbrev nBuf : Space → Nat
  | .hbm => 67
  | .vmem => 8
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S100000x128, .f32⟩
  | .hbm, ⟨27, _⟩ => ⟨S100000x128, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000x128, .f32⟩
  | .hbm, ⟨37, _⟩ => ⟨S_, .f32⟩
  | .hbm, ⟨38, _⟩ => ⟨S100000x128, .f32⟩
  | .hbm, ⟨39, _⟩ => ⟨S1700000x1, .i32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S100000x128, .f32⟩
  | .hbm, ⟨44, _⟩ => ⟨S100000x128, .f32⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000x128, .f32⟩
  | .hbm, ⟨54, _⟩ => ⟨S_, .f32⟩
  | .hbm, ⟨55, _⟩ => ⟨S100000x128, .f32⟩
  | .hbm, ⟨56, _⟩ => ⟨S1700000x1, .i32⟩
  | .hbm, ⟨57, _⟩ => ⟨S100000x128, .f32⟩
  | .hbm, ⟨58, _⟩ => ⟨S_, .i32⟩
  | .hbm, ⟨59, _⟩ => ⟨S_, .f32⟩
  | .hbm, ⟨60, _⟩ => ⟨S100352x128, .f32⟩
  | .hbm, ⟨61, _⟩ => ⟨S_, .i32⟩
  | .hbm, ⟨62, _⟩ => ⟨S_, .f32⟩
  | .hbm, ⟨63, _⟩ => ⟨S100352x1, .f32⟩
  | .hbm, ⟨64, _⟩ => ⟨S1x128, .f32⟩
  | .hbm, ⟨65, _⟩ => ⟨S100352x128, .f32⟩
  | .hbm, ⟨66, _⟩ => ⟨S100000x128, .f32⟩
  | .local _ .vmem, ⟨0, _⟩ => ⟨S2048x128, .f32⟩
  | .local _ .vmem, ⟨1, _⟩ => ⟨S2048x128, .f32⟩
  | .local _ .vmem, ⟨2, _⟩ => ⟨S2048x1, .f32⟩
  | .local _ .vmem, ⟨3, _⟩ => ⟨S2048x1, .f32⟩
  | .local _ .vmem, ⟨4, _⟩ => ⟨S128x128, .f32⟩
  | .local _ .vmem, ⟨5, _⟩ => ⟨S1x128, .f32⟩
  | .local _ .vmem, ⟨6, _⟩ => ⟨S2048x128, .f32⟩
  | .local _ .vmem, ⟨7, _⟩ => ⟨S2048x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c_5 : Ref sig .tc := ⟨.hbm, 45, rfl⟩
abbrev main_v32 : Ref sig .tc := ⟨.hbm, 46, rfl⟩
abbrev main_v33 : Ref sig .tc := ⟨.hbm, 47, rfl⟩
abbrev main_c_6 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_c_8 : Ref sig .tc := ⟨.hbm, 58, rfl⟩
abbrev main_call1_v0 : Ref sig .tc := ⟨.hbm, 59, rfl⟩
abbrev main_v42 : Ref sig .tc := ⟨.hbm, 60, rfl⟩
abbrev main_c_9 : Ref sig .tc := ⟨.hbm, 61, rfl⟩
abbrev main_call2_v0 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  pads_S100000x128_S100352x128_03520_000 : S100000x128.Pads (![0, 0] : Fin 2 → Nat) ![352, 0] ![0, 0] S100352x128
  h_S_ : 0 < S_.numel
  pads_S100000x1_S100352x1_03520_000 : S100000x1.Pads (![0, 0] : Fin 2 → Nat) ![352, 0] ![0, 0] S100352x1
  shapeCasts_S128_S1x128 : S128.ShapeCasts S1x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x128 : S2048x1.Broadcasts S2048x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  slices_S100352x128_S100000x128_0_0 : S100352x128.Slices ![0, 0] S100000x128
  scatter_S100000_S1700000x1_S1700000_n_0_0_1_wf : ScatterDims.WF S100000 S1700000x1 S1700000 [] [0] [0] 1
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S2048x128_S128x128_S2048x128_1_0_0_1_n_n_wf : DotDims.WF S2048x128 S128x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S100352x128.size a
  hwx0_0 : ∀ i : grid0.Coords, EltTy.bits .f32 = 32 ∨ (Rect.block (s := S100352x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S100352x1.size a
  hwx0_1 : ∀ i : grid0.Coords, EltTy.bits .f32 = 32 ∨ (Rect.block (s := S100352x1) S2048x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x128.size a ≤ S100352x128.size a
  hwx0_4 : ∀ i : grid0.Coords, EltTy.bits .f32 = 32 ∨ (Rect.block (s := S100352x128) S2048x128.size (cc0_transform_4 i) (hinb0_4 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf

abbrev win0_0 : Pipeline.Window sig grid0 :=
  Pipeline.Window.ofSpec (Memref.whole main_v42) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v43) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v44) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v45) S2048x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 80
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1700000, .i32⟩
  | .hbm, ⟨27, _⟩ => ⟨S1700000, .i1⟩
  | .hbm, ⟨28, _⟩ => ⟨S_, .i32⟩
  | .hbm, ⟨29, _⟩ => ⟨S1700000, .i32⟩
  | .hbm, ⟨30, _⟩ => ⟨S1700000, .i32⟩
  | .hbm, ⟨31, _⟩ => ⟨S1700000, .i32⟩
  | .hbm, ⟨32, _⟩ => ⟨S1700000x1, .i32⟩
  | .hbm, ⟨33, _⟩ => ⟨S1700000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S_, .i32⟩
  | .hbm, ⟨45, _⟩ => ⟨S1700000, .i32⟩
  | .hbm, ⟨46, _⟩ => ⟨S1700000, .i1⟩
  | .hbm, ⟨47, _⟩ => ⟨S_, .i32⟩
  | .hbm, ⟨48, _⟩ => ⟨S1700000, .i32⟩
  | .hbm, ⟨49, _⟩ => ⟨S1700000, .i32⟩
  | .hbm, ⟨50, _⟩ => ⟨S1700000, .i32⟩
  | .hbm, ⟨51, _⟩ => ⟨S1700000x1, .i32⟩
  | .hbm, ⟨52, _⟩ => ⟨S1700000x128, .f32⟩
  | .hbm, ⟨53, _⟩ => ⟨S1700000x1, .f32⟩
  | .hbm, ⟨54, _⟩ => ⟨S1700000x128, .f32⟩
  | .hbm, ⟨55, _⟩ => ⟨S1700000x128, .f32⟩
  | .hbm, ⟨56, _⟩ => ⟨S_, .f32⟩
  | .hbm, ⟨57, _⟩ => ⟨S100000x128, .f32⟩
  | .hbm, ⟨58, _⟩ => ⟨S1700000x1, .i32⟩
  | .hbm, ⟨59, _⟩ => ⟨S100000x128, .f32⟩
  | .hbm, ⟨60, _⟩ => ⟨S_, .i32⟩
  | .hbm, ⟨61, _⟩ => ⟨S1700000, .i32⟩
  | .hbm, ⟨62, _⟩ => ⟨S1700000, .i1⟩
  | .hbm, ⟨63, _⟩ => ⟨S_, .i32⟩
  | .hbm, ⟨64, _⟩ => ⟨S1700000, .i32⟩
  | .hbm, ⟨65, _⟩ => ⟨S1700000, .i32⟩
  | .hbm, ⟨66, _⟩ => ⟨S1700000, .i32⟩
  | .hbm, ⟨67, _⟩ => ⟨S1700000x1, .i32⟩
  | .hbm, ⟨68, _⟩ => ⟨S1700000x128, .f32⟩
  | .hbm, ⟨69, _⟩ => ⟨S1700000x1, .f32⟩
  | .hbm, ⟨70, _⟩ => ⟨S1700000x128, .f32⟩
  | .hbm, ⟨71, _⟩ => ⟨S1700000x128, .f32⟩
  | .hbm, ⟨72, _⟩ => ⟨S_, .f32⟩
  | .hbm, ⟨73, _⟩ => ⟨S100000x128, .f32⟩
  | .hbm, ⟨74, _⟩ => ⟨S1700000x1, .i32⟩
  | .hbm, ⟨75, _⟩ => ⟨S100000x128, .f32⟩
  | .hbm, ⟨76, _⟩ => ⟨S100000x128, .f32⟩
  | .hbm, ⟨77, _⟩ => ⟨S1x128, .f32⟩
  | .hbm, ⟨78, _⟩ => ⟨S100000x128, .f32⟩
  | .hbm, ⟨79, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_6 : Ref sig .tc := ⟨.hbm, 44, rfl⟩
abbrev main_v30 : Ref sig .tc := ⟨.hbm, 45, rfl⟩
abbrev main_v31 : Ref sig .tc := ⟨.hbm, 46, rfl⟩
abbrev main_c_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_c_9 : Ref sig .tc := ⟨.hbm, 60, rfl⟩
abbrev main_v43 : Ref sig .tc := ⟨.hbm, 61, rfl⟩
abbrev main_v44 : Ref sig .tc := ⟨.hbm, 62, rfl⟩
abbrev main_c_10 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_11 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.LibPlainDot.lean ====
/-
  A plain two-dimensional matrix product — `M × K` by `K × N`, contracting the left operand's columns with the right operand's
  rows, no batch axis (`DotDims.plain M K N`, the dimension numbers `<[1], [0], [0], [1]>`) — read at an output index over the
  extended reals: both a kernel's `tpu.matmul` into a zero accumulator and the host's `dot_general` are the finite sum
  `Σ_{k < K} lhs (r, k) · rhs (k, j)`, with the contraction index a plain `Fin K` and the operand indices built from coordinates.
  A printed record `dot_S…_1_0_0_1_n_n` of these dimension numbers IS `DotDims.plain M K N` (`rfl`: the lists coincide and the
  well-formedness field is a proposition), so one `rw` with that equation brings a printed product under these lemmas.
-/
import Idealize.ShloMosaic.PureOps.Ideal.Laws
import Idealize.ShloMosaic.Lib.ValueIdx

namespace Idealize.ShloMosaic.PlainDot

open Idealize.ShloMosaic.ValueIdx

variable {M K N : Nat}

theorem contr_rank : (DotDims.plain M K N).contr.rank = 1 := rfl
theorem contr_size : (DotDims.plain M K N).contr.size ⟨0, by rw [contr_rank]; exact Nat.one_pos⟩ = K := rfl

/-- The left operand's row coordinate is the output's. -/
theorem lhsIdx_val0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction position. -/
theorem lhsIdx_val1 (j : (⟨2, ![M, N]⟩ : Shape).Idx) (q : (DotDims.plain M K N).contr.Idx) :
    ((DotDims.plain M K N).lhsIdx j q 1).val = (q ⟨0, by rw [contr_rank]; exact Nat.one_pos⟩).val :=
  (DotDims.plain M K N).lhsIdx_val_of_single (cl := (1 : Fin 2)) rfl j q

/-- The right operand's row coordinate is the contraction position. -/
theorem rhsIdx_val0 (j : (⟨2, ![M, N]⟩ : Shape).Idx) (q : (DotDims.plain M K N).contr.Idx) :
    ((DotDims.plain M K N).rhsIdx j q 0).val = (q ⟨0, by rw [contr_rank]; exact Nat.one_pos⟩).val :=
  (DotDims.plain M K N).rhsIdx_val_of_single (cr := (0 : Fin 2)) rfl j q

/-- The right operand's column coordinate is the output's. -/
theorem rhsIdx_val1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at output index `j` and contraction position `k` is `(j₀, k)`. -/
theorem lhsIdx_eq (j : (⟨2, ![M, N]⟩ : Shape).Idx) (k : Fin K) :
    (DotDims.plain M K N).lhsIdx j ((contrEquiv1 (DotDims.plain M K N) K contr_rank contr_size).symm k)
      = ix2 ⟨(j 0).val, idx2_lt0 j⟩ k := by
  have hk := contrEquiv1_symm_val (DotDims.plain M K N) K contr_rank contr_size k
  funext a
  apply Fin.ext
  match a with
  | ⟨0, _⟩ => exact lhsIdx_val0 j _
  | ⟨1, _⟩ => exact (lhsIdx_val1 j _).trans hk

/-- The right operand's index there is `(k, j₁)`. -/
theorem rhsIdx_eq (j : (⟨2, ![M, N]⟩ : Shape).Idx) (k : Fin K) :
    (DotDims.plain M K N).rhsIdx j ((contrEquiv1 (DotDims.plain M K N) K contr_rank contr_size).symm k)
      = ix2 k ⟨(j 1).val, idx2_lt1 j⟩ := by
  have hk := contrEquiv1_symm_val (DotDims.plain M K N) K contr_rank contr_size k
  funext a
  apply Fin.ext
  match a with
  | ⟨0, _⟩ => exact (rhsIdx_val0 j _).trans hk
  | ⟨1, _⟩ => exact rhsIdx_val1 j _

/-- A kernel's plain matrix product into the zero accumulator, at an output index: the sum over the contracted coordinate. -/
theorem matmul_apply {φ₁ φ₂ : FTy} (prec : Option ContractPrecision) (lhs : FVec Ideal ⟨2, ![M, K]⟩ φ₁)
    (rhs : FVec Ideal ⟨2, ![K, N]⟩ φ₂) (j : (⟨2, ![M, N]⟩ : Shape).Idx) :
    FloatOps.matmul (DotDims.plain M K N) prec lhs rhs (constant ⟨2, ![M, N]⟩ .f32 0x00000000#32) j
      = ∑ k : Fin K, lhs (ix2 ⟨(j 0).val, idx2_lt0 j⟩ k) * rhs (ix2 k ⟨(j 1).val, idx2_lt1 j⟩) := by
  rw [Ideal.matmul_constant_zero_apply,
    ← Equiv.sum_comp (contrEquiv1 (DotDims.plain M K N) K contr_rank contr_size).symm]
  refine Finset.sum_congr rfl fun k _ => ?_
  rw [lhsIdx_eq, rhsIdx_eq]

/-- The host's plain `dot_general` at an output index: the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (j : (⟨2, ![M, N]⟩ : Shape).Idx) :
    FloatOps.dotGeneral (DotDims.plain M K N) prec sched lhs rhs j
      = ∑ k : Fin K, lhs (ix2 ⟨(j 0).val, idx2_lt0 j⟩ k) * rhs (ix2 k ⟨(j 1).val, idx2_lt1 j⟩) := by
  rw [Ideal.dotGeneral_apply,
    ← Equiv.sum_comp (contrEquiv1 (DotDims.plain M K N) K contr_rank contr_size).symm]
  refine Finset.sum_congr rfl fun k _ => ?_
  rw [lhsIdx_eq, rhsIdx_eq]

/-- At an index given by coordinates. -/
theorem matmul_apply_ix2 {φ₁ φ₂ : FTy} (prec : Option ContractPrecision) (lhs : FVec Ideal ⟨2, ![M, K]⟩ φ₁)
    (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, lhs (ix2 r k) * rhs (ix2 k c) :=
  matmul_apply prec lhs rhs (ix2 r c)

theorem dotGeneral_apply_ix2 {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  dotGeneral_apply prec sched lhs rhs (ix2 r c)

end Idealize.ShloMosaic.PlainDot
-- ==== Proof.LibColumnLayout.lean ====
/-
  Two layout steps that every row-wise reduction kept as a column needs, read at an index.

  A sum along the rows of an [a, b] block is a vector of length a. Kept "as a column" it is viewed as an [a, 1] array, and to
  be combined with the block again it is spread over the b columns. Read at an entry, both steps only pick the row: the
  column at (i, u) is the vector at i, and the spread column at (p, c) is the column at (p, 0). Stated for any extents and
  any element type; no program is involved.
-/
import Idealize.ShloMosaic.Lib.ValueIdx
import Idealize.ShloMosaic.Lib.ValueLayout
import Idealize.ShloMosaic.Lib.Pipeline.Value

noncomputable section

namespace Cert.Lib.ColumnLayout

open Idealize.ShloMosaic Idealize.ShloMosaic.ValueIdx

/-- A vector of length `a` viewed as an `[a, 1]` column reads, at `(i, u)`, the vector at `i`, whatever the unit
    coordinate `u`: both positions are the `i`-th in row-major order. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column spread over `b` columns reads, at `(p, c)`, the column's entry in row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.ColumnLayout

end
-- ==== Proof.KernelPayload.lean ====
/-
  The kernel body's stored value, read at an entry.

  At a grid point the body holds a 2048-row tile `x` of the second segment sum, the matching 2048 entries `dv` of the
  normalisation column, the whole weight matrix `W` and the bias row `b`, and stores `(x ⊙ dv) · W + b`: the tile's rows
  scaled by their nodes' normalisation (the post-scale of the last propagation step, deferred into the kernel), multiplied by
  `W` on the matrix unit, plus the bias. Over the extended reals the narrowing to bf16 is the identity and the product into a
  zero accumulator is the plain finite sum, so entry `(p, q)` is `∑ₖ (x p k · dv p) · W k q + b q`.
-/
import proofs.«116685_j34892314312745_2_alg».proof.Proof.Gen.KernelIdeal.Skeleton
import proofs.«116685_j34892314312745_2_alg».proof.Proof.LibPlainDot
import proofs.«116685_j34892314312745_2_alg».proof.Proof.LibColumnLayout
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-- THE STORED VALUE AT `(p, q)`: the scaled row of the tile against column `q` of the weights, plus the bias. -/
theorem pay_apply (x0 : Vec Ideal S2048x128 .f32) (x1 : Vec Ideal S2048x1 .f32) (x2 : Vec Ideal S128x128 .f32)
    (x3 : Vec Ideal S1x128 .f32) (p : Fin 2048) (q : Fin 128) :
    k0_pay1 (F := Ideal) x0 x1 x2 x3 (ix2 p q)
      = (∑ k : Fin 128, (x0 (ix2 p k) * x1 (ix2 p (0 : Fin 1))) * x2 (ix2 k q)) + x3 (ix2 (0 : Fin 1) q) := by
  unfold k0_pay1
  refine (addf_apply _ _ (ix2 p q)).trans ?_
  refine congrArg₂ (fun a b : EReal => a + b) ?_ ?_
  · refine (PlainDot.matmul_apply_ix2 (M := 2048) (K := 128) (N := 128) none _ _ p q).trans ?_
    refine Finset.sum_congr rfl fun k _ => ?_
    refine congrArg₂ (fun a b : EReal => a * b) ?_ rfl
    refine (mulf_apply _ _ (ix2 p k)).trans ?_
    refine congrArg₂ (fun a b : EReal => a * b) ?_ ?_
    · exact congrFun (shapeCast_self x0 _) (ix2 p k)
    · refine (Cert.Lib.ColumnLayout.broadcastTo_a1_ab_apply _ _ p k).trans ?_
      exact (congrFun (shapeCast_self _ _) (ix2 p (0 : Fin 1))).trans (congrFun (shapeCast_self x1 _) (ix2 p (0 : Fin 1)))
  · refine (broadcastTo_1b_ab_apply _ _ p q).trans ?_
    exact congrFun (shapeCast_self x3 _) (ix2 (0 : Fin 1) q)

end Cert.KernelIdeal.Payload

end
-- ==== Proof.KernelBlocks.lean ====
/-
  From the kernel's blocks to its output array.

  The region runs the body on 49 tiles of 2048 rows. Tile `t` reads rows `2048·t … 2048·t + 2047` of the padded segment sum and of
  the padded normalisation column, the whole weight matrix and the bias row, and writes the same rows of the output. Every row
  of the `100352 = 49 · 2048`-row output lies in exactly the tile `row / 2048`, so the output array is ONE function of the arrays the
  region finds: entry `(r, q)` is `∑ₖ (A r k · D r) · W k q + B q`.
-/
import proofs.«116685_j34892314312745_2_alg».proof.Proof.Gen.KernelIdeal.Frame
import proofs.«116685_j34892314312745_2_alg».proof.Proof.KernelPayload
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

/-- The output array as a function of the four arrays the region stages: a scaled row against a column of the weights, plus the
    bias. -/
def rowsOut (A : S100352x128.Idx → EReal) (D : S100352x1.Idx → EReal) (W : S128x128.Idx → EReal) (B : S1x128.Idx → EReal) :
    S100352x128.Idx → EReal :=
  fun i => (∑ k : Fin 128, (A (ix2 (⟨(i 0).val, idx2_lt0 i⟩ : Fin 100352) k) * D (ix2 (⟨(i 0).val, idx2_lt0 i⟩ : Fin 100352) (0 : Fin 1)))
      * W (ix2 k (⟨(i 1).val, idx2_lt1 i⟩ : Fin 128))) + B (ix2 (0 : Fin 1) (⟨(i 1).val, idx2_lt1 i⟩ : Fin 128))

/-- At an entry given by coordinates. -/
theorem rowsOut_ix2 (A : S100352x128.Idx → EReal) (D : S100352x1.Idx → EReal) (W : S128x128.Idx → EReal) (B : S1x128.Idx → EReal)
    (r : Fin 100352) (q : Fin 128) :
    rowsOut A D W B (ix2 r q) = (∑ k : Fin 128, (A (ix2 r k) * D (ix2 r (0 : Fin 1))) * W (ix2 k q)) + B (ix2 (0 : Fin 1) q) := rfl

/-- A tile's stored value is the tile of `rowsOut`, entry by entry, once each loaded block is known to be the matching piece of its
    array: rows `r = 2048·t + p` of the two row-tiled operands, all of the weights and of the bias. -/
theorem point_eq (A : S100352x128.Idx → EReal) (D : S100352x1.Idx → EReal) (W : S128x128.Idx → EReal) (B : S1x128.Idx → EReal)
    (x0 : Vec Ideal S2048x128 .f32) (x1 : Vec Ideal S2048x1 .f32) (x2 : Vec Ideal S128x128 .f32) (x3 : Vec Ideal S1x128 .f32)
    (p : Fin 2048) (q : Fin 128) (r : Fin 100352)
    (h0 : ∀ k : Fin 128, x0 (ix2 p k) = A (ix2 r k)) (h1 : x1 (ix2 p (0 : Fin 1)) = D (ix2 r (0 : Fin 1)))
    (h2 : ∀ k : Fin 128, x2 (ix2 k q) = W (ix2 k q)) (h3 : x3 (ix2 (0 : Fin 1) q) = B (ix2 (0 : Fin 1) q)) :
    k0_pay1 (F := Ideal) x0 x1 x2 x3 (ix2 p q) = rowsOut A D W B (ix2 r q) := by
  rw [Payload.pay_apply, rowsOut_ix2, h1, h3]
  refine congrArg₂ (fun a b : EReal => a + b) (Finset.sum_congr rfl fun k _ => ?_) rfl
  rw [h0 k, h2 k]

variable (m : (ℓ : Loc nD τ sig) → Buf (Elt Ideal) ℓ)

theorem hz : (![0, 0] : Fin 2 → Nat) = fun _ => 0 := funext fun a => by fin_cases a <;> rfl

/-- The printed index maps, decided over the 49 points: the row-tiled windows sit at block row `t`, the weights and the bias at
    their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Where entry `(p, q)` of point `t`'s output block sits in the output array: row `2048·t + p`. -/
theorem emb4 (t : Fin cfg0.N) (p : Fin 2048) (q : Fin 128) (r : Fin 100352) (hr : r.val = t.val * 2048 + p.val) :
    ((cfg0.win 4).blk t).view.emb (ix2 p q) = ix2 r q := by
  obtain ⟨e00, e01, e10, e11, e20, e21, e30, e31, e40, e41⟩ := idx_facts t
  funext a; apply Fin.ext
  match a with
  | ⟨0, _⟩ => show win0_4.index t (0 : Fin 2) * 2048 + 1 * p.val = r.val; omega
  | ⟨1, _⟩ => show win0_4.index t (1 : Fin 2) * 128 + 1 * q.val = q.val; omega

/-- Point `t`'s block of the padded segment sum is its rows `2048·t + p`. -/
theorem read0 (c : Dev nD) (t : Fin cfg0.N) (p : Fin 2048) (k : Fin 128) (r : Fin 100352) (hr : r.val = t.val * 2048 + p.val) :
    iblk m c 0 t (ix2 p k) = V m c main_v42 (ix2 r k) := by
  obtain ⟨e00, e01, e10, e11, e20, e21, e30, e31, e40, e41⟩ := idx_facts t
  show V m c main_v42 (((cfg0.win 0).blk t).view.emb (ix2 p k)) = V m c main_v42 (ix2 r k)
  refine congrArg _ (funext fun a => Fin.ext ?_)
  match a with
  | ⟨0, _⟩ => show win0_0.index t (0 : Fin 2) * 2048 + 1 * p.val = r.val; omega
  | ⟨1, _⟩ => show win0_0.index t (1 : Fin 2) * 128 + 1 * k.val = k.val; omega

/-- Point `t`'s block of the padded normalisation column is its rows `2048·t + p`. -/
theorem read1 (c : Dev nD) (t : Fin cfg0.N) (p : Fin 2048) (r : Fin 100352) (hr : r.val = t.val * 2048 + p.val) :
    iblk m c 1 t (ix2 p (0 : Fin 1)) = V m c main_v43 (ix2 r (0 : Fin 1)) := by
  obtain ⟨e00, e01, e10, e11, e20, e21, e30, e31, e40, e41⟩ := idx_facts t
  show V m c main_v43 (((cfg0.win 1).blk t).view.emb (ix2 p (0 : Fin 1))) = V m c main_v43 (ix2 r (0 : Fin 1))
  refine congrArg _ (funext fun a => Fin.ext ?_)
  match a with
  | ⟨0, _⟩ => show win0_1.index t (0 : Fin 2) * 2048 + 1 * p.val = r.val; omega
  | ⟨1, _⟩ => show win0_1.index t (1 : Fin 2) * 1 + 1 * 0 = 0; omega

/-- Every point's block of the weights is the whole matrix. -/
theorem read2 (c : Dev nD) (t : Fin cfg0.N) (k q : Fin 128) :
    iblk m c 2 t (ix2 k q) = V m c main_arg2 (ix2 k q) := by
  obtain ⟨e00, e01, e10, e11, e20, e21, e30, e31, e40, e41⟩ := idx_facts t
  show V m c main_arg2 (((cfg0.win 2).blk t).view.emb (ix2 k q)) = V m c main_arg2 (ix2 k q)
  refine congrArg _ (funext fun a => Fin.ext ?_)
  match a with
  | ⟨0, _⟩ => show win0_2.index t (0 : Fin 2) * 128 + 1 * k.val = k.val; omega
  | ⟨1, _⟩ => show win0_2.index t (1 : Fin 2) * 128 + 1 * q.val = q.val; omega

/-- Every point's block of the bias is the whole row. -/
theorem read3 (c : Dev nD) (t : Fin cfg0.N) (q : Fin 128) :
    iblk m c 3 t (ix2 (0 : Fin 1) q) = V m c main_v44 (ix2 (0 : Fin 1) q) := by
  obtain ⟨e00, e01, e10, e11, e20, e21, e30, e31, e40, e41⟩ := idx_facts t
  show V m c main_v44 (((cfg0.win 3).blk t).view.emb (ix2 (0 : Fin 1) q)) = V m c main_v44 (ix2 (0 : Fin 1) q)
  refine congrArg _ (funext fun a => Fin.ext ?_)
  match a with
  | ⟨0, _⟩ => show win0_3.index t (0 : Fin 2) * 1 + 1 * 0 = 0; omega
  | ⟨1, _⟩ => show win0_3.index t (1 : Fin 2) * 128 + 1 * q.val = q.val; omega

set_option maxHeartbeats 1000000 in
/-- WHAT POINT `t` WRITES BACK is block `t` of `rowsOut` of the arrays the region finds. -/
theorem flushed_eq (c : Dev nD) (t : Fin cfg0.N) :
    (dats m 0 c).flushed 4 t = ((cfg0.win 4).blk t).view.read (Elt Ideal)
      (rowsOut (V m c main_v42) (V m c main_v43) (V m c main_arg2) (V m c main_v44)) := by
  show (cfg0.win 4).cut (grid0.coords t) ((dats m 0 c).after 4 t) = _
  rw [after0_4]
  unfold out0_4
  rw [View.canon_unit_zero hz]
  simp only [View.ld_unit_zero (S := S2048x128) hz, View.ld_unit_zero (S := S2048x1) hz, View.ld_unit_zero (S := S128x128) hz,
    View.ld_unit_zero (S := S1x128) hz]
  have ht : t.val < 49 := t.isLt
  funext j
  obtain ⟨p, q, rfl⟩ : ∃ (p : Fin 2048) (q : Fin 128), j = ix2 p q := ⟨j 0, j 1, eq_ix2 j⟩
  have hp : p.val < 2048 := p.isLt
  show k0_pay1 (F := Ideal) (iblk m c 0 t) (iblk m c 1 t) (iblk m c 2 t) (iblk m c 3 t) (ix2 p q)
    = rowsOut (V m c main_v42) (V m c main_v43) (V m c main_arg2) (V m c main_v44) (((cfg0.win 4).blk t).view.emb (ix2 p q))
  rw [emb4 t p q ⟨t.val * 2048 + p.val, by omega⟩ rfl]
  exact point_eq _ _ _ _ _ _ _ _ p q _ (fun k => read0 m c t p k _ rfl) (read1 m c t p _ rfl) (fun k => read2 m c t k q) (read3 m c t q)

/-- An index of the output array is in point `t`'s block iff each coordinate is in the block's range on its axis. -/
theorem mem_blk (t : Fin cfg0.N) (i : S100352x128.Idx) :
    i ∈ ((cfg0.win 4).blk t).view.set ↔ ∀ a : Fin 2, win0_4.index t a * S2048x128.size a ≤ (i a).val
      ∧ (i a).val < win0_4.index t a * S2048x128.size a + S2048x128.size a := by
  show i ∈ ((View.whole main_v45).slice (win0_4.rect t)).set ↔ _
  rw [View.set_slice_whole, Rect.mem_set_unit]
  exact Iff.rfl

/-- Every entry of the output lies in the tile `row / 2048`. -/
theorem cover (i : S100352x128.Idx) :
    ∃ t : Fin cfg0.N, (cfg0.win 4).flush t = true ∧ i ∈ ((cfg0.win 4).blk t).view.set := by
  have hi0 : (i 0).val < 100352 := (i 0).isLt
  have hi1 : (i 1).val < 128 := (i 1).isLt
  have hN : grid0.N = 49 := N_0
  have htlt : (i 0).val / 2048 < grid0.N := by rw [hN]; omega
  refine ⟨⟨(i 0).val / 2048, htlt⟩, flush0_4 _, ?_⟩
  rw [mem_blk]
  obtain ⟨-, -, -, -, -, -, -, -, e40, e41⟩ := idx_facts ⟨(i 0).val / 2048, htlt⟩
  intro a
  match a with
  | ⟨0, _⟩ =>
    show win0_4.index ⟨(i 0).val / 2048, htlt⟩ (0 : Fin 2) * 2048 ≤ (i 0).val
      ∧ (i 0).val < win0_4.index ⟨(i 0).val / 2048, htlt⟩ (0 : Fin 2) * 2048 + 2048
    rw [e40]
    show (i 0).val / 2048 * 2048 ≤ (i 0).val ∧ (i 0).val < (i 0).val / 2048 * 2048 + 2048
    omega
  | ⟨1, _⟩ =>
    show win0_4.index ⟨(i 0).val / 2048, htlt⟩ (1 : Fin 2) * 128 ≤ (i 1).val
      ∧ (i 1).val < win0_4.index ⟨(i 0).val / 2048, htlt⟩ (1 : Fin 2) * 128 + 128
    rw [e41]
    omega

/-- THE OUTPUT ARRAY after the run is `rowsOut` of the arrays the region finds. -/
theorem final (c : Dev nD) :
    (dats m 0 c).arrAt 4 cfg0.N = rowsOut (V m c main_v42) (V m c main_v43) (V m c main_arg2) (V m c main_v44) :=
  (dats m 0 c).arrAt_eq_of_cover 4 _ (fun t _ => flushed_eq m c t) cover

end Cert.KernelIdeal.Blocks

end
-- ==== Proof.KernelRun.lean ====
/-
  The kernel program's run, with its result named.

  After the region the program keeps the first 100000 rows of the region's 100352-row output (the 352 padding rows are cut off).
  The generated frame run ends with every array of the region at what the blocks wrote and every other buffer as the lines after
  the region leave it; read at the result buffer that is the slice of `rowsOut` of the arrays the region found, and the four
  arguments end as they were.
-/
import proofs.«116685_j34892314312745_2_alg».proof.Proof.Gen.KernelIdeal.Frame
import proofs.«116685_j34892314312745_2_alg».proof.Proof.KernelBlocks
import Idealize.ShloMosaic.Lib.StableHlo.Run
import Idealize.ShloMosaic.Lib.Pipeline.FrameSuffix

noncomputable section

namespace Cert.KernelIdeal.Run

open Cert.KernelIdeal Cert.KernelIdeal.Gen Idealize.ShloMosaic Idealize.ShloMosaic.TcCoe Idealize.ShloMosaic.ValueIdx
open Idealize.SL Idealize.SL.Sem Idealize.ShloMosaic.StableHlo

variable (m : (ℓ : Loc nD τ sig) → Buf (Elt Ideal) ℓ) (ρ : Dev nD → PrngReg)

/-- The program's result on core `c`: the first 100000 rows of the region's output. -/
def out (c : Dev nD) : S100000x128.Idx → EReal :=
  extractStridedSlice S100000x128 ![0, 0]
    (Blocks.rowsOut (V m c main_v42) (V m c main_v43) (V m c main_arg2) (V m c main_v44)) slices_S100352x128_S100000x128_0_0

/-- The line after the region reads the region's output array, which is `rowsOut`. -/
theorem tail_eq (c : Dev nD) :
    Pipeline.afterTail₀ cfgs (dats m) 0 (V0 m) [hostOps1] c main_v46 = out m c := by
  unfold Pipeline.afterTail₀
  show StableHlo.after hostOps1 _ (Proc.devRef .tc main_v46) = _
  after_results
  unfold out
  refine congrArg (fun X : S100352x128.Idx → EReal => extractStridedSlice S100000x128 ![0, 0] X slices_S100352x128_S100000x128_0_0) ?_
  exact (Pipeline.withArrays_arr spec0 launch0.win.arr_inj c _ _ 4).trans (Blocks.final m c)

/-- THE KERNEL PROGRAM'S RUN: every weakly fair execution terminates, the result buffer at `out` and the arguments unchanged. -/
theorem run : θ_run defs (onTc (τ := τ) (main (F := Ideal))) ⟨m, fun _ => 0, ρ⟩ (fun r => ∀ c : Dev nD,
      r.2.mem ((c.tc : Thread nD τ).loc main_v46) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v46 (Pipeline.mem_restRefs_of main_v46 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c)⟩)
    (run_main m ρ)

end Cert.KernelIdeal.Run

end
-- ==== Proof.KernelHost.lean ====
/-
  The arrays the kernel's region finds, as functions of the arguments.

  Before the region the kernel's program computes, on the host: the degree-normalisation `dinv` (one entry per node: the
  inverse square root of the node's in-degree, self loop included, guarded against zero), kept as a column `[N, 1]`; the
  source and destination of every edge; and two propagation steps, each `s ↦ segment_sum((dinv · h)[src], dst)`, the first
  followed by two scalings by `dinv` (the step's own post-scale and the next step's pre-scale), the second left unscaled.
  The result `s2` and the column are padded with 352 zero rows to a multiple of the row tile, and the bias is viewed as a row.
  The degree, the edge lists and the normalised indices are the SAME operations as the reference's, so they are named by the
  reference's stages; what is the kernel's own is spelt here.
-/
import proofs.«116685_j34892314312745_2_alg».proof.Proof.Gen.KernelIdeal.Frame
import proofs.«116685_j34892314312745_2_alg».proof.Proof.RefReadP
import Idealize.ShloMosaic.Lib.StableHlo.Run

noncomputable section

namespace Cert.KernelIdeal.HostSide

open Cert.KernelIdeal Cert.KernelIdeal.Gen Idealize.ShloMosaic Idealize.ShloMosaic.TcCoe Idealize.SL.Sem Idealize.ShloMosaic.StableHlo
open Cert.ReferenceIdeal.ReadP (val_main_v14 val_main_v20 val_main_v40 val_main_v41)

variable {F : FTy → Type} [FloatOps F]

/-- `dinv` as a column: entry `(n, 0)` is node `n`'s normalisation. -/
def dcol (x1 : (⟨S2x1600000, .i32⟩ : BufTy).Contents (Elt F)) : FVec F S100000x1 .f32 :=
  shapeCast S100000x1 (val_main_v14 (F := F) x1) shapeCasts_S100000_S100000x1

/-- The column spread over the 128 features. -/
def dB (x1 : (⟨S2x1600000, .i32⟩ : BufTy).Contents (Elt F)) : FVec F S100000x128 .f32 :=
  broadcastInDim S100000x128 ![0, 1] bcast_S100000x1_S100000x128_0_1 (dcol x1)

/-- One step's segment sum of the pre-scaled features: gather the rows of `dinv · h` at the edges' sources, add them up at the
    edges' destinations. -/
def seg (x1 : (⟨S2x1600000, .i32⟩ : BufTy).Contents (Elt F)) (h : FVec F S100000x128 .f32) : FVec F S100000x128 .f32 :=
  Host.scatterAdd scatter_S100000x128_S1700000x1_S1700000x128_1_0_0_1 (val_main_v40 (F := F)) (val_main_v41 (F := F) x1)
    (Host.gather gather_S100000x128_S1700000x1_S1700000x128_1_0_n_n_0_1_1128 (mulf (dB x1) h) (val_main_v20 (F := F) x1))

/-- The features after the first step, post-scaled. -/
def h1 (x0 : FVec F S100000x128 .f32) (x1 : (⟨S2x1600000, .i32⟩ : BufTy).Contents (Elt F)) : FVec F S100000x128 .f32 :=
  mulf (dB x1) (seg x1 x0)

/-- The second step's segment sum, its post-scale left to the kernel. -/
def s2 (x0 : FVec F S100000x128 .f32) (x1 : (⟨S2x1600000, .i32⟩ : BufTy).Contents (Elt F)) : FVec F S100000x128 .f32 :=
  seg x1 (h1 x0 x1)

/-- The padding value: the integer zero converted. -/
def zpad : FVec F S_ .f32 := sitofp (F := F) .f32 (constantI S_ 32 0#32)

/-- `s2` with 352 rows of padding below. -/
def padS2 (x0 : FVec F S100000x128 .f32) (x1 : (⟨S2x1600000, .i32⟩ : BufTy).Contents (Elt F)) : FVec F S100352x128 .f32 :=
  pad S100352x128 ![0, 0] ![352, 0] ![0, 0] (s2 x0 x1) (zpad (F := F)) pads_S100000x128_S100352x128_03520_000 h_S_

/-- The column with 352 rows of padding below. -/
def padD (x1 : (⟨S2x1600000, .i32⟩ : BufTy).Contents (Elt F)) : FVec F S100352x1 .f32 :=
  pad S100352x1 ![0, 0] ![352, 0] ![0, 0] (dcol x1) (zpad (F := F)) pads_S100000x1_S100352x1_03520_000 h_S_

/-- The bias as a row. -/
def brow (x3 : FVec F S128 .f32) : FVec F S1x128 .f32 := shapeCast S1x128 x3 shapeCasts_S128_S1x128

variable (m : (ℓ : Loc nD τ sig) → Buf (Elt F) ℓ) (c : Dev nD)

set_option maxHeartbeats 16000000 in
/-- The region's first operand is the padded second segment sum. -/
theorem V_main_v42 : Gen.V m c main_v42
    = padS2 (F := F) (m ((c : Thread nD τ).loc main_arg0)) (m ((c : Thread nD τ).loc main_arg1)) := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  rfl

set_option maxHeartbeats 16000000 in
/-- Its second operand is the padded normalisation column. -/
theorem V_main_v43 : Gen.V m c main_v43 = padD (F := F) (m ((c : Thread nD τ).loc main_arg1)) := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  rfl

set_option maxHeartbeats 16000000 in
/-- Its fourth operand is the bias as a row. -/
theorem V_main_v44 : Gen.V m c main_v44 = brow (F := F) (m ((c : Thread nD τ).loc main_arg3)) := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  rfl

end Cert.KernelIdeal.HostSide

end
-- ==== Proof.LibSegmentSum.lean ====
/-
  Segment sums by gather and scatter-add, read at an index.

  A graph aggregation `segment_sum(h[src] * w, dst)` lowers to a row gather (operand `[N, C]`, start indices `[E, 1]`,
  result `[E, C]`), a vector gather for per-node weights (operand `[N]`, result `[E]`) and a row scatter with an
  `add` body (operand `[N, C]`, scatter indices `[E, 1]`, updates `[E, C]`). This file reads the three at an index:

  * a gather's element `(e, c)` is the operand's row `clampRow (idx[e, 0])` — the start index read as a signed integer and
    clamped into `[0, N − 1]` — at column `c` (`rowGather_apply`, `vecGather_apply`);
  * an update `(e, c)` of the scatter lands on `(n, c')` only if `c = c'` and the scatter index `idx[e, 0]`, read signed and NOT
    clamped, is `n` (`rowScatter_lands`);
  * over the extended reals a scale `s n` that is nonnegative and not `⊤` moves across the segment sum:
    if every update that lands in row `n` is `s n` times another update, the scattered sum is `s n` times the other sum
    (`scatterAdd_row_scale`). Distributivity over the extended reals needs exactly that side condition on the
    scalar (`x * (⊤ + ⊥)`), and none on the summands;
  * `select (x > 0) (rsqrt x) 0`, the inverse square root of a degree guarded against zero, is such a scalar for every
    extended real `x` (`guarded_rsqrt_nonneg`, `guarded_rsqrt_ne_top`).
-/
import Idealize.ShloMosaic.PureOps.Ideal
import Idealize.ShloMosaic.PureOps.Ideal.Laws
import Idealize.ShloMosaic.Lib.ValueIdx
import Mathlib.Data.EReal.Operations

noncomputable section

open scoped BigOperators

namespace Idealize.ShloMosaic.SegmentSum

open Idealize.ShloMosaic Idealize.ShloMosaic.ValueIdx

/-! ## The clamp of a start index -/

/-- A word read as a signed integer and clamped into `[0, N − 1]`: the row a gather reads. -/
def clampRow {w : Nat} (N : Nat) (hN : 0 < N) (b : BitVec w) : Fin N :=
  ⟨min b.toInt.toNat (N - 1), by omega⟩

/-- A word whose signed reading is a row number is clamped to that row. -/
theorem clampRow_of_toInt {w : Nat} (N : Nat) (hN : 0 < N) (b : BitVec w) (n : Fin N) (h : b.toInt = (n.val : Int)) :
    clampRow N hN b = n := by
  apply Fin.ext
  show min b.toInt.toNat (N - 1) = n.val
  rw [h, Int.toNat_natCast]
  have := n.isLt
  omega

/-! ## Closed facts about the two-axis lists the dimension numbers name -/

private theorem one_not_mem_zero : ¬ (1 : Fin 2) ∈ [(0 : Fin 2)] := by decide
private theorem one_mem_kept_zero : (1 : Fin 2) ∈ (List.finRange 2).filter (fun a => decide (a ∉ [(0 : Fin 2)])) := by decide
private theorem zero_not_mem_kept_zero : ¬ (0 : Fin 2) ∈ (List.finRange 2).filter (fun a => decide (a ∉ [(0 : Fin 2)])) := by decide
private theorem one_mem_kept_zero_app : (1 : Fin 2) ∈ (List.finRange 2).filter (fun a => decide (a ∉ [(0 : Fin 2)] ++ [])) := by decide

/-! ## The row gather: operand `[N, C]`, start indices `[E, 1]`, result `[E, C]` -/

/-- The dimension numbers of `x[idx]` along axis 0 of a matrix: offset_dims `[1]`, collapsed_slice_dims `[0]`,
    start_index_map `[0]`, index_vector_dim 1, slice_sizes `[1, C]`. -/
abbrev rowGatherDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER AT `(e, c)`: the operand's row `clampRow (idx[e, 0])` at column `c`. -/
theorem rowGather_apply {α : Type} {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N C E wf) x idx (ix2 e c) = x (ix2 (clampRow N hN (idx (ix2 e (0 : Fin 1)))) c) := by
  unfold Host.gather
  refine congrArg x ?_
  funext a
  refine Fin.ext ?_
  match a with
  | ⟨0, _⟩ =>
    show (rowGatherDims N C E wf).start (ix2 e c) idx 0 + (rowGatherDims N C E wf).batchCoord (ix2 e c) 0
      + (rowGatherDims N C E wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N C E wf).startIndexMap from List.mem_singleton.mpr rfl)]
    have hsi : (rowGatherDims N C E wf).siIdx (ix2 e c) ⟨List.idxOf (0 : Fin 2) (rowGatherDims N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N C E wf).start (ix2 e c) idx 1 + (rowGatherDims N C E wf).batchCoord (ix2 e c) 1
      + (rowGatherDims N C E wf).offCoord (ix2 e c) 1 = c.val
    rw [GatherDims.batchCoord_eq_zero _ _ _ List.not_mem_nil]
    have hs : (rowGatherDims N C E wf).start (ix2 e c) idx 1 = 0 := by
      unfold GatherDims.start
      rw [dif_neg (show ¬ (1 : Fin 2) ∈ (rowGatherDims N C E wf).startIndexMap from one_not_mem_zero)]
    rw [hs]
    simp only [Nat.add_zero, Nat.zero_add]
    unfold GatherDims.offCoord
    rw [dif_pos (show (1 : Fin 2) ∈ (rowGatherDims N C E wf).sKept from one_mem_kept_zero_app)]
    rfl

/-! ## The vector gather: operand `[N]`, start indices `[E, 1]`, result `[E]` -/

/-- The dimension numbers of `x[idx]` of a flat array at a vector of indices kept as a column: offset_dims `[]`,
    collapsed_slice_dims `[0]`, start_index_map `[0]`, index_vector_dim 1, slice_sizes `[1]`. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE VECTOR GATHER AT `e`: the operand at `clampRow (idx[e, 0])`. -/
theorem vecGather_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 (clampRow N hN (idx (ix2 e (0 : Fin 1))))) := by
  unfold Host.gather
  refine congrArg x ?_
  funext a
  refine Fin.ext ?_
  match a with
  | ⟨0, _⟩ =>
    show (vecGatherDims N E wf).start (ix1 e) idx 0 + (vecGatherDims N E wf).batchCoord (ix1 e) 0
      + (vecGatherDims N E wf).offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecGatherDims N E wf).startIndexMap from List.mem_singleton.mpr rfl)]
    have hsi : (vecGatherDims N E wf).siIdx (ix1 e) ⟨List.idxOf (0 : Fin 1) (vecGatherDims N E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

/-! ## The row scatter: operand `[N, C]`, scatter indices `[E, 1]`, updates `[E, C]` -/

/-- The dimension numbers of `x.at[idx].add(u)` along axis 0 of a matrix (a segment sum of rows): update_window_dims
    `[1]`, inserted_window_dims `[0]`, scatter_dims_to_operand_dims `[0]`, index_vector_dim 1. -/
abbrev rowScatterDims (N C E : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- WHERE AN UPDATE LANDS: update `(e, c)` lands on operand element `(n, c')` only if its scatter index `idx[e, 0]`,
    read signed, is the row `n`, and `c = c'`. -/
theorem rowScatter_lands {N C E w : Nat}
    (wf : ScatterDims.WF ⟨2, ![N, C]⟩ ⟨2, ![E, 1]⟩ ⟨2, ![E, C]⟩ [1] [0] [0] 1)
    (idx : IVec ⟨2, ![E, 1]⟩ w) (e : Fin E) (c : Fin C) (n : Fin N) (c' : Fin C)
    (h : (rowScatterDims N C E wf).resultIdx? (ix2 e c) idx = some (ix2 n c')) :
    (idx (ix2 e (0 : Fin 1))).toInt = (n.val : Int) ∧ c = c' := by
  unfold ScatterDims.resultIdx? at h
  split at h
  · rename_i hin
    have h' := Option.some.inj h
    have hst0 : (rowScatterDims N C E wf).start (ix2 e c) idx 0 = (idx (ix2 e (0 : Fin 1))).toInt := by
      unfold ScatterDims.start
      rw [dif_pos (show (0 : Fin 2) ∈ (rowScatterDims N C E wf).scatterDimsToOperandDims from List.mem_singleton.mpr rfl)]
      have hsi : (rowScatterDims N C E wf).siIdx (ix2 e c) ⟨List.idxOf (0 : Fin 2) (rowScatterDims N C E wf).scatterDimsToOperandDims,
          List.idxOf_lt_length_iff.2 (List.mem_singleton.mpr rfl)⟩ = ix2 e (0 : Fin 1) := by
        funext b; refine Fin.ext ?_
        match b with
        | ⟨0, _⟩ => rfl
        | ⟨1, _⟩ => rfl
      rw [hsi]
    have hw0 : (rowScatterDims N C E wf).window (ix2 e c) 0 = 0 := by
      unfold ScatterDims.window
      rw [dif_neg (show ¬ (0 : Fin 2) ∈ (rowScatterDims N C E wf).sKept from zero_not_mem_kept_zero)]
    have hst1 : (rowScatterDims N C E wf).start (ix2 e c) idx 1 = 0 := by
      unfold ScatterDims.start
      rw [dif_neg (show ¬ (1 : Fin 2) ∈ (rowScatterDims N C E wf).scatterDimsToOperandDims from one_not_mem_zero)]
    have hw1 : (rowScatterDims N C E wf).window (ix2 e c) 1 = c.val := by
      unfold ScatterDims.window
      rw [dif_pos (show (1 : Fin 2) ∈ (rowScatterDims N C E wf).sKept from one_mem_kept_zero)]
      rfl
    have e0 := congrArg (fun f => (f (0 : Fin 2)).val) h'
    have e1 := congrArg (fun f => (f (1 : Fin 2)).val) h'
    simp only at e0 e1
    have b0 := (hin 0).1
    rw [hst0, hw0] at e0 b0
    rw [hst1, hw1] at e1
    constructor
    · have : ((idx (ix2 e (0 : Fin 1))).toInt + ((0 : Nat) : Int)).toNat = n.val := e0
      omega
    · apply Fin.ext
      have : ((0 : Int) + (c.val : Int)).toNat = c'.val := e1
      omega
  · exact absurd h (by simp)

/-! ## Extended reals: a nonnegative finite scalar moves across a finite sum -/

/-- `c * ∑ f = ∑ c * f` over the extended reals for `0 ≤ c ≠ ⊤`, whatever the summands. -/
theorem mul_sum_of_nonneg_of_ne_top {ι : Type*} (s : Finset ι) (f : ι → EReal) {c : EReal} (h0 : 0 ≤ c) (ht : c ≠ ⊤) :
    c * ∑ j ∈ s, f j = ∑ j ∈ s, c * f j := by
  classical
  induction s using Finset.induction_on with
  | empty => simp
  | insert a s ha ih =>
    rw [Finset.sum_insert ha, Finset.sum_insert ha, EReal.left_distrib_of_nonneg_of_ne_top h0 ht, ih]

/-- THE SCALE ACROSS THE SEGMENT SUM. Into a zero operand, if every update `v (e, c)` whose scatter index reads row `n` is
    `s n * u (e, c)` for a scale `s n` that is nonnegative and not `⊤`, then row `n` of the scattered sum of `v` is `s n` times
    row `n` of the scattered sum of `u`. -/
theorem scatterAdd_row_scale {N C E w : Nat}
    (wf : ScatterDims.WF ⟨2, ![N, C]⟩ ⟨2, ![E, 1]⟩ ⟨2, ![E, C]⟩ [1] [0] [0] 1)
    (z : (⟨2, ![N, C]⟩ : Shape).Idx → EReal) (hz : ∀ i, z i = 0) (idx : IVec ⟨2, ![E, 1]⟩ w)
    (u v : (⟨2, ![E, C]⟩ : Shape).Idx → EReal) (s : Fin N → EReal) (n : Fin N) (c : Fin C)
    (h0 : 0 ≤ s n) (ht : s n ≠ ⊤)
    (huv : ∀ (e : Fin E), (idx (ix2 e (0 : Fin 1))).toInt = (n.val : Int) → v (ix2 e c) = s n * u (ix2 e c)) :
    Ideal.hostScatterAdd (rowScatterDims N C E wf) z idx v (ix2 n c)
      = s n * Ideal.hostScatterAdd (rowScatterDims N C E wf) z idx u (ix2 n c) := by
  unfold Ideal.hostScatterAdd
  rw [hz, zero_add, zero_add, mul_sum_of_nonneg_of_ne_top _ _ h0 ht]
  refine Finset.sum_congr rfl fun j hj => ?_
  obtain ⟨e, c1, rfl⟩ : ∃ (e : Fin E) (c1 : Fin C), j = ix2 e c1 := ⟨j 0, j 1, eq_ix2 j⟩
  have hl := rowScatter_lands wf idx e c1 n c (Finset.mem_filter.mp hj).2
  obtain ⟨hrow, rfl⟩ := hl
  exact huv e hrow

/-! ## One propagation step with a symmetric normalisation, in its two arrangements -/

/-- THE STEP. Edge `e` carries a source row `clampRow (iS e)`, a destination row read off `iR e` (signed, dropped when out of
    range) and the same destination through an index `iD e` that agrees with `iR e` whenever that is nonnegative. Scaling each
    gathered source row `h (s, ·)` by the edge weight `d s · d (clampRow (iD e))` and summing by destination (updates `v`) gives,
    in row `n`, `d n` times the sum by destination of the source rows pre-scaled by their own `d s` (updates `u`): the factor
    `d (destination)` is constant on the segment, and a nonnegative finite scalar moves across an extended-real sum. -/
theorem scatterAdd_sym_norm {N C E w : Nat} (hN : 0 < N)
    (wf : ScatterDims.WF ⟨2, ![N, C]⟩ ⟨2, ![E, 1]⟩ ⟨2, ![E, C]⟩ [1] [0] [0] 1)
    (z : (⟨2, ![N, C]⟩ : Shape).Idx → EReal) (hz : ∀ i, z i = 0)
    (iS iD iR : IVec ⟨2, ![E, 1]⟩ w)
    (hDR : ∀ e : Fin E, 0 ≤ (iR (ix2 e (0 : Fin 1))).toInt → iD (ix2 e (0 : Fin 1)) = iR (ix2 e (0 : Fin 1)))
    (d : Fin N → EReal) (hd0 : ∀ n, 0 ≤ d n) (hdt : ∀ n, d n ≠ ⊤)
    (h : (⟨2, ![N, C]⟩ : Shape).Idx → EReal) (u v : (⟨2, ![E, C]⟩ : Shape).Idx → EReal)
    (hu : ∀ (e : Fin E) (c : Fin C), u (ix2 e c)
      = d (clampRow N hN (iS (ix2 e (0 : Fin 1)))) * h (ix2 (clampRow N hN (iS (ix2 e (0 : Fin 1)))) c))
    (hv : ∀ (e : Fin E) (c : Fin C), v (ix2 e c)
      = h (ix2 (clampRow N hN (iS (ix2 e (0 : Fin 1)))) c)
        * (d (clampRow N hN (iS (ix2 e (0 : Fin 1)))) * d (clampRow N hN (iD (ix2 e (0 : Fin 1))))))
    (n : Fin N) (c : Fin C) :
    Ideal.hostScatterAdd (rowScatterDims N C E wf) z iR v (ix2 n c)
      = d n * Ideal.hostScatterAdd (rowScatterDims N C E wf) z iR u (ix2 n c) := by
  refine scatterAdd_row_scale wf z hz iR u v d n c (hd0 n) (hdt n) fun e he => ?_
  have hnn : 0 ≤ (iR (ix2 e (0 : Fin 1))).toInt := by rw [he]; exact Int.natCast_nonneg _
  rw [hv, hu, hDR e hnn, clampRow_of_toInt N hN _ n he]
  ac_rfl

/-- The same, stated for the host operation at any two records that ARE these dimension numbers (a printed program names its own
    record; the equations are `rfl`), so that it applies to a printed term as it stands. -/
theorem hostScatterAdd_sym_norm {N C E w : Nat} (hN : 0 < N)
    (wf : ScatterDims.WF ⟨2, ![N, C]⟩ ⟨2, ![E, 1]⟩ ⟨2, ![E, C]⟩ [1] [0] [0] 1)
    (dv du : ScatterDims ⟨2, ![N, C]⟩ ⟨2, ![E, 1]⟩ ⟨2, ![E, C]⟩)
    (hdv : dv = rowScatterDims N C E wf) (hdu : du = rowScatterDims N C E wf)
    (z : FVec Ideal ⟨2, ![N, C]⟩ .f32) (hz : ∀ i, z i = 0)
    (iS iD iR : IVec ⟨2, ![E, 1]⟩ w)
    (hDR : ∀ e : Fin E, 0 ≤ (iR (ix2 e (0 : Fin 1))).toInt → iD (ix2 e (0 : Fin 1)) = iR (ix2 e (0 : Fin 1)))
    (d : Fin N → EReal) (hd0 : ∀ n, 0 ≤ d n) (hdt : ∀ n, d n ≠ ⊤)
    (h : FVec Ideal ⟨2, ![N, C]⟩ .f32) (u v : FVec Ideal ⟨2, ![E, C]⟩ .f32)
    (hu : ∀ (e : Fin E) (c : Fin C), u (ix2 e c)
      = d (clampRow N hN (iS (ix2 e (0 : Fin 1)))) * h (ix2 (clampRow N hN (iS (ix2 e (0 : Fin 1)))) c))
    (hv : ∀ (e : Fin E) (c : Fin C), v (ix2 e c)
      = h (ix2 (clampRow N hN (iS (ix2 e (0 : Fin 1)))) c)
        * (d (clampRow N hN (iS (ix2 e (0 : Fin 1)))) * d (clampRow N hN (iD (ix2 e (0 : Fin 1))))))
    (n : Fin N) (c : Fin C) :
    Host.scatterAdd dv z iR v (ix2 n c) = d n * Host.scatterAdd du z iR u (ix2 n c) := by
  subst hdv hdu
  exact scatterAdd_sym_norm hN wf z hz iS iD iR hDR d hd0 hdt h u v hu hv n c

/-! ## The wrap of a negative index -/

/-- `select (a < z) (a + k) a` with `z` the zero word — jnp's wrap of a negative index — leaves a word whose signed reading is
    nonnegative as it is. -/
theorem wrap_of_nonneg {w : Nat} (a k z : BitVec w) (hz : z.toInt = 0) (h : 0 ≤ a.toInt) :
    Scalar.select (IntOp.cmpi .slt a z) (IntOp.addi a k) a = a := by
  have hs : a.slt z = false := by
    simp only [BitVec.slt, hz, decide_eq_false_iff_not, not_lt]
    exact h
  show (if BitVec.ofBool (a.slt z) = 1 then IntOp.addi a k else a) = a
  rw [hs, if_neg (by decide)]

/-! ## The guarded inverse square root is a nonnegative finite scalar -/

/-- `select (x > 0) (rsqrt x) 0` is nonnegative … -/
theorem guarded_rsqrt_nonneg (x : EReal) : 0 ≤ Scalar.select (Ideal.cmp .ogt x 0) (Ideal.rsqrt x) (0 : EReal) := by
  unfold Scalar.select Ideal.cmp
  by_cases hx : (0 : EReal) < x
  · rw [if_pos (by simp [hx])]
    induction x using EReal.rec with
    | bot => exact absurd hx (by simp)
    | top => simp
    | coe r =>
      have hr : 0 < r := by exact_mod_cast hx
      rw [Ideal.rsqrt_coe, if_neg (not_lt.mpr hr.le), if_neg hr.ne']
      exact_mod_cast inv_nonneg.mpr (Real.sqrt_nonneg r)
  · rw [if_neg (by simp [hx])]

/-- … and never `⊤`: the guard excludes the one argument, `0`, whose inverse square root is infinite. -/
theorem guarded_rsqrt_ne_top (x : EReal) : Scalar.select (Ideal.cmp .ogt x 0) (Ideal.rsqrt x) (0 : EReal) ≠ ⊤ := by
  unfold Scalar.select Ideal.cmp
  by_cases hx : (0 : EReal) < x
  · rw [if_pos (by simp [hx])]
    induction x using EReal.rec with
    | bot => exact absurd hx (by simp)
    | top => simp
    | coe r =>
      have hr : 0 < r := by exact_mod_cast hx
      rw [Ideal.rsqrt_coe, if_neg (not_lt.mpr hr.le), if_neg hr.ne']
      exact EReal.coe_ne_top _
  · rw [if_neg (by simp [hx])]
    exact EReal.zero_ne_top

end Idealize.ShloMosaic.SegmentSum

end
-- ==== Proof.RefHops.lean ====
/-
  The reference's propagation step, in the vocabulary of the segment-sum lemmas.

  The reference computes the normalisation `d n = select (deg n > 0) (rsqrt (deg n)) 0` of every node, the edge weight
  `norm e = d (src e) · d (dst e)` by two gathers at the edges' (wrapped, clamped) endpoints, and twice
  `h ↦ segment_sum(h[src] · norm, dst)`. Read off its stages: `d` is nonnegative and never `⊤`; the operand of each scatter is zero;
  the wrapped destination index is the raw one wherever that is nonnegative; the edge weight spread over the features is the
  product of the two gathered normalisations; and the two steps are one function `refStep` applied twice.
-/
import proofs.«116685_j34892314312745_2_alg».proof.Proof.RefReadP
import proofs.«116685_j34892314312745_2_alg».proof.Proof.LibSegmentSum
import Idealize.ShloMosaic.Lib.ValueIdx
import Idealize.ShloMosaic.PureOps.Ideal.Laws

noncomputable section

namespace Cert.ReferenceIdeal.Hops

open Cert.ReferenceIdeal Cert.ReferenceIdeal.Gen Cert.ReferenceIdeal.ReadP
open Idealize.ShloMosaic Idealize.ShloMosaic.ValueIdx Idealize.ShloMosaic.SegmentSum

/-- The edge list argument and a feature array, at the extended reals. -/
abbrev EdgeArg := (⟨S2x1600000, .i32⟩ : BufTy).Contents (Elt Ideal)
abbrev Feat := FVec Ideal S100000x128 .f32

theorem hN : 0 < 100000 := by decide

/-- Node `n`'s normalisation. -/
def d (x1 : EdgeArg) (n : Fin 100000) : EReal := val_main_v14 (F := Ideal) x1 (ix1 n)

/-- The normalisation read off its stages: the guarded inverse square root of the degree. -/
theorem d_eq (x1 : EdgeArg) (n : Fin 100000) :
    d x1 n = Scalar.select (Ideal.cmp .ogt (val_main_v10 (F := Ideal) x1 (ix1 n)) 0) (Ideal.rsqrt (val_main_v10 (F := Ideal) x1 (ix1 n))) (0 : EReal) := by
  unfold d
  rw [val_main_v14_apply, val_main_v12_apply, val_main_v13_apply, val_main_call0_v1_apply, val_main_call0_v0_apply, val_main_cst_2_apply,
    val_main_v11_apply, val_main_cst_1_apply]
  simp only [Ideal.ofBits_def, Ideal.ofBits_zero_f32, Ideal.hostUnary_rsqrt_def]
  rfl

theorem d_nonneg (x1 : EdgeArg) (n : Fin 100000) : 0 ≤ d x1 n := by
  rw [d_eq]; exact guarded_rsqrt_nonneg _

theorem d_ne_top (x1 : EdgeArg) (n : Fin 100000) : d x1 n ≠ ⊤ := by
  rw [d_eq]; exact guarded_rsqrt_ne_top _

/-- The scatters start from zero. -/
theorem zero40 (i : S100000x128.Idx) : val_main_v40 (F := Ideal) i = 0 := by
  rw [val_main_v40_apply, val_main_cst_8_apply]
  simp only [Ideal.ofBits_def, Ideal.ofBits_zero_f32]

/-- The wrapped destination index is the raw one wherever the raw one is nonnegative. -/
theorem wrap_dst (x1 : EdgeArg) (e : Fin 1700000) (h : 0 ≤ (val_main_v41 (F := Ideal) x1 (ix2 e (0 : Fin 1))).toInt) :
    val_main_v27 (F := Ideal) x1 (ix2 e (0 : Fin 1)) = val_main_v41 (F := Ideal) x1 (ix2 e (0 : Fin 1)) := by
  rw [val_main_v41_apply] at h ⊢
  rw [val_main_v27_apply, val_main_v26_apply, val_main_v23_apply, val_main_v25_apply, val_main_v22_apply, val_main_c_4_apply]
  exact wrap_of_nonneg _ _ _ rfl h

/-- The three normalised source index arrays and the repeated broadcasts are one array each. -/
theorem v35_eq {F : FTy → Type} [FloatOps F] (x1 : (⟨S2x1600000, .i32⟩ : BufTy).Contents (Elt F)) :
    val_main_v35 (F := F) x1 = val_main_v20 (F := F) x1 := rfl
theorem v48_eq {F : FTy → Type} [FloatOps F] (x1 : (⟨S2x1600000, .i32⟩ : BufTy).Contents (Elt F)) :
    val_main_v48 (F := F) x1 = val_main_v20 (F := F) x1 := rfl

/-- THE EDGE WEIGHT, spread over the features, at `(e, c)`: the normalisations of the edge's two clamped endpoints. -/
theorem norm_apply (x1 : EdgeArg) (e : Fin 1700000) (c : Fin 128) :
    val_main_v38 (F := Ideal) x1 (ix2 e c)
      = d x1 (clampRow 100000 hN (val_main_v20 (F := Ideal) x1 (ix2 e (0 : Fin 1))))
        * d x1 (clampRow 100000 hN (val_main_v27 (F := Ideal) x1 (ix2 e (0 : Fin 1)))) := by
  have hj : idx_main_v37 (idx_main_v38 (ix2 e c)) = ix1 e := funext fun a => by
    match a with
    | ⟨0, _⟩ => rfl
  rw [val_main_v38_apply, val_main_v37_apply, val_main_v29_apply, hj, Ideal.mulf_def]
  unfold val_main_v21 val_main_v28
  exact congrArg₂ (fun a b : EReal => a * b)
    (vecGather_apply hN gather_S100000_S1700000x1_S1700000_n_0_n_n_0_1_1_wf (val_main_v14 (F := Ideal) x1) (val_main_v20 (F := Ideal) x1) e)
    (vecGather_apply hN gather_S100000_S1700000x1_S1700000_n_0_n_n_0_1_1_wf (val_main_v14 (F := Ideal) x1) (val_main_v27 (F := Ideal) x1) e)

/-- One step of the reference: gather the source rows, weight them by the edge norm, sum by destination. -/
def refStepF {F : FTy → Type} [FloatOps F] (x1 : (⟨S2x1600000, .i32⟩ : BufTy).Contents (Elt F)) (h : FVec F S100000x128 .f32) :
    FVec F S100000x128 .f32 :=
  Host.scatterAdd scatter_S100000x128_S1700000x1_S1700000x128_1_0_0_1 (val_main_v40 (F := F)) (val_main_v41 (F := F) x1)
    (mulf (Host.gather gather_S100000x128_S1700000x1_S1700000x128_1_0_n_n_0_1_1128 h (val_main_v20 (F := F) x1)) (val_main_v38 (F := F) x1))

/-- The reference's first step is that step of the features, and its second is the step of the first's result (the repeated
    index and broadcast stages being one array each). -/
theorem v42_eqF {F : FTy → Type} [FloatOps F] (x0 : FVec F S100000x128 .f32) (x1 : (⟨S2x1600000, .i32⟩ : BufTy).Contents (Elt F)) :
    val_main_v42 (F := F) x0 x1 = refStepF x1 x0 := rfl
theorem v55_eqF {F : FTy → Type} [FloatOps F] (x0 : FVec F S100000x128 .f32) (x1 : (⟨S2x1600000, .i32⟩ : BufTy).Contents (Elt F)) :
    val_main_v55 (F := F) x0 x1 = refStepF x1 (val_main_v42 (F := F) x0 x1) := rfl

/-- The step over the extended reals. -/
def refStep (x1 : EdgeArg) (h : Feat) : Feat := refStepF (F := Ideal) x1 h

theorem v42_eq (x0 : Feat) (x1 : EdgeArg) : val_main_v42 (F := Ideal) x0 x1 = refStep x1 x0 := v42_eqF x0 x1
theorem v55_eq (x0 : Feat) (x1 : EdgeArg) : val_main_v55 (F := Ideal) x0 x1 = refStep x1 (val_main_v42 (F := Ideal) x0 x1) := v55_eqF x0 x1

end Cert.ReferenceIdeal.Hops

end
-- ==== Proof.BridgeCol.lean ====
/-
  The node normalisation read off the kernel program's column `[N, 1]` and off that column spread over the features.
-/
import proofs.«116685_j34892314312745_2_alg».proof.Proof.KernelHost
import proofs.«116685_j34892314312745_2_alg».proof.Proof.RefHops
import proofs.«116685_j34892314312745_2_alg».proof.Proof.LibColumnLayout
import Idealize.ShloMosaic.Lib.Pipeline.Value
import Idealize.ShloMosaic.Lib.ValueIdx

noncomputable section

namespace Cert.Bridge

open Idealize.ShloMosaic Idealize.ShloMosaic.TcCoe Idealize.ShloMosaic.ValueIdx Idealize.ShloMosaic.SegmentSum
open Cert.ReferenceIdeal.ReadP
open Cert.ReferenceIdeal.Hops (EdgeArg Feat d refStep hN)
open Cert.KernelIdeal.HostSide (dcol dB seg h1 s2 padS2 padD brow zpad)

/-- The normalisation column at `(n, 0)` is node `n`'s normalisation … -/
theorem dcol_apply (x1 : EdgeArg) (n : Fin 100000) : dcol (F := Ideal) x1 (ix2 n (0 : Fin 1)) = d x1 n := by
  unfold dcol d
  exact Cert.Lib.ColumnLayout.shapeCast_a_a1_apply _ _ n 0

/-- … and so is the column spread over the features, at `(n, c)`. -/
theorem dB_apply (x1 : EdgeArg) (n : Fin 100000) (c : Fin 128) : dB (F := Ideal) x1 (ix2 n c) = d x1 n := by
  unfold dB
  refine (broadcastInDim_apply _ _ _ (ix2 n c) (ix2 n (0 : Fin 1)) (fun a => ?_)).trans (dcol_apply x1 n)
  match a with
  | ⟨0, _⟩ => show n.val = if (100000 : Nat) = 1 then 0 else n.val; rw [if_neg (by decide)]
  | ⟨1, _⟩ => show 0 = if (1 : Nat) = 1 then 0 else c.val; rw [if_pos rfl]

end Cert.Bridge

end
-- ==== Proof.BridgeStep.lean ====
/-
  One propagation step in its two arrangements.

  Write `d` for the node normalisation, `E_n` for the edges whose destination is node `n` and `s(e)` for the (wrapped, clamped) source of
  edge `e`. A reference step sends features `h` to `R h (n, ·) = ∑_{e ∈ E_n} h (s e, ·) · (d (s e) · d n)`; the kernel's program
  computes `S h (n, ·) = ∑_{e ∈ E_n} d (s e) · h (s e, ·)` and scales by `d n` afterwards. Since `d n` is a nonnegative finite
  scalar, `R h = d ⊙ S h` over the extended reals whatever the features hold (`step_eq`). Hence the kernel's first step with its
  post-scale is the reference's (`h1_eq`), and the reference's second step is `d` times the kernel's second segment sum
  (`second_step`).
-/
import proofs.«116685_j34892314312745_2_alg».proof.Proof.BridgeCol
import proofs.«116685_j34892314312745_2_alg».proof.Proof.LibSegmentSum

noncomputable section

namespace Cert.Bridge

open Idealize.ShloMosaic Idealize.ShloMosaic.TcCoe Idealize.ShloMosaic.ValueIdx Idealize.ShloMosaic.SegmentSum
open Cert.ReferenceIdeal.ReadP
open Cert.ReferenceIdeal.Hops (EdgeArg Feat d refStep hN)
open Cert.KernelIdeal.HostSide (dcol dB seg h1 s2 padS2 padD brow zpad)

/-- The kernel program's update at edge `e`: the source row, pre-scaled by the source's normalisation. -/
theorem kernel_update (x1 : EdgeArg) (h : Feat) (e : Fin 1700000) (c : Fin 128) :
    Host.gather Cert.KernelIdeal.gather_S100000x128_S1700000x1_S1700000x128_1_0_n_n_0_1_1128 (mulf (dB (F := Ideal) x1) h) (val_main_v20 (F := Ideal) x1) (ix2 e c)
      = d x1 (clampRow 100000 hN (val_main_v20 (F := Ideal) x1 (ix2 e (0 : Fin 1))))
        * h (ix2 (clampRow 100000 hN (val_main_v20 (F := Ideal) x1 (ix2 e (0 : Fin 1)))) c) := by
  have eg : Cert.KernelIdeal.gather_S100000x128_S1700000x1_S1700000x128_1_0_n_n_0_1_1128 = rowGatherDims 100000 128 1700000 Cert.KernelIdeal.Gen.gather_S100000x128_S1700000x1_S1700000x128_1_0_n_n_0_1_1128_wf := rfl
  rw [eg, rowGather_apply hN]
  exact (mulf_apply _ _ _).trans (congrArg₂ (fun a b : EReal => a * b) (dB_apply x1 _ c) rfl)

/-- The reference's update at edge `e`: the source row times the edge weight, the product of the two endpoints' normalisations. -/
theorem ref_update (x1 : EdgeArg) (h : Feat) (e : Fin 1700000) (c : Fin 128) :
    mulf (Host.gather Cert.ReferenceIdeal.gather_S100000x128_S1700000x1_S1700000x128_1_0_n_n_0_1_1128 h (val_main_v20 (F := Ideal) x1)) (val_main_v38 (F := Ideal) x1) (ix2 e c)
      = h (ix2 (clampRow 100000 hN (val_main_v20 (F := Ideal) x1 (ix2 e (0 : Fin 1)))) c)
        * (d x1 (clampRow 100000 hN (val_main_v20 (F := Ideal) x1 (ix2 e (0 : Fin 1))))
          * d x1 (clampRow 100000 hN (val_main_v27 (F := Ideal) x1 (ix2 e (0 : Fin 1))))) := by
  have eg : Cert.ReferenceIdeal.gather_S100000x128_S1700000x1_S1700000x128_1_0_n_n_0_1_1128 = rowGatherDims 100000 128 1700000 Cert.ReferenceIdeal.Gen.gather_S100000x128_S1700000x1_S1700000x128_1_0_n_n_0_1_1128_wf := rfl
  rw [eg]
  exact (mulf_apply _ _ _).trans (congrArg₂ (fun a b : EReal => a * b)
    (rowGather_apply hN Cert.ReferenceIdeal.Gen.gather_S100000x128_S1700000x1_S1700000x128_1_0_n_n_0_1_1128_wf h _ e c) (Cert.ReferenceIdeal.Hops.norm_apply x1 e c))

/-- ONE STEP, THE TWO ARRANGEMENTS: the reference's step is the node normalisation times the kernel's segment sum of pre-scaled
    features, for any features. -/
theorem step_eq (x1 : EdgeArg) (h : Feat) (n : Fin 100000) (c : Fin 128) :
    refStep x1 h (ix2 n c) = d x1 n * seg (F := Ideal) x1 h (ix2 n c) := by
  unfold refStep Cert.ReferenceIdeal.Hops.refStepF seg
  exact hostScatterAdd_sym_norm (N := 100000) (C := 128) (E := 1700000) hN Cert.ReferenceIdeal.Gen.scatter_S100000x128_S1700000x1_S1700000x128_1_0_0_1_wf
    Cert.ReferenceIdeal.scatter_S100000x128_S1700000x1_S1700000x128_1_0_0_1 Cert.KernelIdeal.scatter_S100000x128_S1700000x1_S1700000x128_1_0_0_1 rfl rfl
    (val_main_v40 (F := Ideal)) Cert.ReferenceIdeal.Hops.zero40
    (val_main_v20 (F := Ideal) x1) (val_main_v27 (F := Ideal) x1) (val_main_v41 (F := Ideal) x1)
    (Cert.ReferenceIdeal.Hops.wrap_dst x1) (d x1) (Cert.ReferenceIdeal.Hops.d_nonneg x1) (Cert.ReferenceIdeal.Hops.d_ne_top x1)
    h _ _ (kernel_update x1 h) (ref_update x1 h) n c

/-- The kernel's first step with its post-scale IS the reference's first step. -/
theorem h1_eq (x0 : Feat) (x1 : EdgeArg) : h1 (F := Ideal) x0 x1 = val_main_v42 (F := Ideal) x0 x1 := by
  funext i
  obtain ⟨n, c, rfl⟩ : ∃ (n : Fin 100000) (c : Fin 128), i = ix2 n c := ⟨i 0, i 1, eq_ix2 i⟩
  rw [Cert.ReferenceIdeal.Hops.v42_eq, step_eq]
  unfold h1
  exact (mulf_apply _ _ _).trans (congrArg (fun a : EReal => a * seg (F := Ideal) x1 x0 (ix2 n c)) (dB_apply x1 n c))

/-- The reference's second step is the node normalisation times the kernel's second segment sum. -/
theorem second_step (x0 : Feat) (x1 : EdgeArg) (n : Fin 100000) (k : Fin 128) :
    val_main_v55 (F := Ideal) x0 x1 (ix2 n k) = d x1 n * s2 (F := Ideal) x0 x1 (ix2 n k) := by
  rw [Cert.ReferenceIdeal.Hops.v55_eq, step_eq]
  unfold s2
  rw [h1_eq]

end Cert.Bridge

end
-- ==== Proof.BridgePad.lean ====
/-
  The kernel program's padded operands read inside the first 100000 rows (the padding below is never read by the result), and
  the bias viewed as a row.
-/
import proofs.«116685_j34892314312745_2_alg».proof.Proof.BridgeCol
import Idealize.ShloMosaic.Lib.KernelVsHost
import Idealize.ShloMosaic.Lib.ValueLayout

noncomputable section

namespace Cert.Bridge

open Idealize.ShloMosaic Idealize.ShloMosaic.TcCoe Idealize.ShloMosaic.ValueIdx Idealize.ShloMosaic.SegmentSum
open Cert.ReferenceIdeal.ReadP
open Cert.ReferenceIdeal.Hops (EdgeArg Feat d refStep hN)
open Cert.KernelIdeal.HostSide (dcol dB seg h1 s2 padS2 padD brow zpad)

/-- Inside the first 100000 rows the padded segment sum is the segment sum … -/
theorem padS2_apply (x0 : Feat) (x1 : EdgeArg) (n : Fin 100000) (n' : Fin 100352) (hn : n'.val = n.val) (k : Fin 128) :
    padS2 (F := Ideal) x0 x1 (ix2 n' k) = s2 (F := Ideal) x0 x1 (ix2 n k) := by
  unfold padS2
  refine pad_apply_of_inside _ _ _ _ _ _ _ (ix2 n' k) (ix2 n k) (fun a => ?_)
  match a with
  | ⟨0, _⟩ => show n'.val = 0 + n.val * (0 + 1); omega
  | ⟨1, _⟩ => show k.val = 0 + k.val * (0 + 1); omega

/-- … and the padded column is the column. -/
theorem padD_apply (x1 : EdgeArg) (n : Fin 100000) (n' : Fin 100352) (hn : n'.val = n.val) :
    padD (F := Ideal) x1 (ix2 n' (0 : Fin 1)) = d x1 n := by
  unfold padD
  refine (pad_apply_of_inside _ _ _ _ _ _ _ (ix2 n' (0 : Fin 1)) (ix2 n (0 : Fin 1)) (fun a => ?_)).trans (dcol_apply x1 n)
  match a with
  | ⟨0, _⟩ => show n'.val = 0 + n.val * (0 + 1); omega
  | ⟨1, _⟩ => show 0 = 0 + 0 * (0 + 1); omega

/-- The bias row at `(0, q)` is the bias at `q`. -/
theorem brow_apply (x3 : (⟨Cert.ReferenceIdeal.S128, .f32⟩ : BufTy).Contents (Elt Ideal)) (q : Fin 128) :
    brow (F := Ideal) x3 (ix2 (0 : Fin 1) q) = x3 (ix1 q) := by
  unfold brow
  exact shapeCast_a_1a_apply _ _ 0 q

end Cert.Bridge

end
-- ==== Proof.Bridge.lean ====
/-
  The kernel's result is the reference's, entry by entry.

  The region scales the rows of the second segment sum by `d`, multiplies by the weights and adds the bias, on rows padded to a
  multiple of the tile and cut back afterwards; the reference multiplies its second step by the weights and adds the bias. The
  reference's second step is `d` times the kernel's second segment sum (BridgeStep), so the two results are one function of
  the arguments.
-/
import proofs.«116685_j34892314312745_2_alg».proof.Proof.BridgeStep
import proofs.«116685_j34892314312745_2_alg».proof.Proof.BridgePad
import proofs.«116685_j34892314312745_2_alg».proof.Proof.KernelRun

noncomputable section

namespace Cert.Bridge

open Idealize.ShloMosaic Idealize.ShloMosaic.TcCoe Idealize.ShloMosaic.ValueIdx Idealize.ShloMosaic.SegmentSum
open Cert.ReferenceIdeal.ReadP
open Cert.ReferenceIdeal.Hops (EdgeArg Feat d refStep hN)
open Cert.KernelIdeal.HostSide (dcol dB seg h1 s2 padS2 padD brow zpad)

/-- THE REFERENCE'S RESULT AT `(n, q)`: its second step's row `n` against column `q` of the weights, plus the bias. -/
theorem ref_apply (x0 : Feat) (x1 : EdgeArg) (x2 : FVec Ideal Cert.ReferenceIdeal.S128x128 .f32)
    (x3 : FVec Ideal Cert.ReferenceIdeal.S128 .f32) (n : Fin 100000) (q : Fin 128) :
    val_main_v59 (F := Ideal) x0 x1 x2 x3 (ix2 n q)
      = (∑ k : Fin 128, val_main_v55 (F := Ideal) x0 x1 (ix2 n k) * x2 (ix2 k q)) + x3 (ix1 q) := by
  have hl : ∀ k : Fin 128, lidx_main_v56 (ix2 n q) k = ix2 n k := fun k => funext fun a => by
    match a with
    | ⟨0, _⟩ => rfl
    | ⟨1, _⟩ => rfl
  have hr : ∀ k : Fin 128, ridx_main_v56 (ix2 n q) k = ix2 k q := fun k => funext fun a => by
    match a with
    | ⟨0, _⟩ => rfl
    | ⟨1, _⟩ => rfl
  have hb : idx_main_v57 (idx_main_v58 (ix2 n q)) = ix1 q := funext fun a => by
    match a with
    | ⟨0, _⟩ => rfl
  rw [val_main_v59_apply, val_main_v56_apply, val_main_v58_apply, val_main_v57_apply, hb, Ideal.addf_def]
  refine congrArg (fun s : EReal => s + x3 (ix1 q)) (Finset.sum_congr rfl fun k _ => ?_)
  rw [hl, hr]

variable (m : (ℓ : Loc Cert.KernelIdeal.nD Cert.KernelIdeal.τ Cert.KernelIdeal.sig) → Buf (Elt Ideal) ℓ)

set_option maxHeartbeats 1000000 in
/-- THE KERNEL PROGRAM'S RESULT AT `(n, q)`: row `n` of the second segment sum, scaled by node `n`'s normalisation, against column `q` of
    the weights, plus the bias (the padding rows are not read). -/
theorem out_apply (c : Dev Cert.KernelIdeal.nD) (n : Fin 100000) (q : Fin 128) :
    Cert.KernelIdeal.Run.out m c (ix2 n q)
      = (∑ k : Fin 128, (s2 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (ix2 n k) * d (m ((c.tc : Thread Cert.KernelIdeal.nD Cert.KernelIdeal.τ).loc Cert.KernelIdeal.main_arg1)) n) * (m ((c.tc : Thread Cert.KernelIdeal.nD Cert.KernelIdeal.τ).loc Cert.KernelIdeal.main_arg2)) (ix2 k q)) + (m ((c.tc : Thread Cert.KernelIdeal.nD Cert.KernelIdeal.τ).loc Cert.KernelIdeal.main_arg3)) (ix1 q) := by
  have hn : n.val < 100000 := n.isLt
  unfold Cert.KernelIdeal.Run.out
  rw [extractStridedSlice_apply ![0, 0] _ _ (ix2 n q) (ix2 (⟨n.val, by omega⟩ : Fin 100352) q) (fun a => by
    match a with
    | ⟨0, _⟩ => show n.val = 0 + n.val; omega
    | ⟨1, _⟩ => show q.val = 0 + q.val; omega)]
  rw [Cert.KernelIdeal.Blocks.rowsOut_ix2, Cert.KernelIdeal.HostSide.V_main_v42 (F := Ideal) m c,
    Cert.KernelIdeal.HostSide.V_main_v43 (F := Ideal) m c, Cert.KernelIdeal.HostSide.V_main_v44 (F := Ideal) m c,
    Cert.KernelIdeal.Gen.V_main_arg2 m c]
  rw [padD_apply _ n _ rfl, brow_apply]
  refine congrArg (fun s : EReal => s + (m ((c.tc : Thread Cert.KernelIdeal.nD Cert.KernelIdeal.τ).loc Cert.KernelIdeal.main_arg3)) (ix1 q)) (Finset.sum_congr rfl fun k _ => ?_)
  rw [padS2_apply _ _ n _ rfl]

/-- THE RESULTS AGREE: the kernel program's result on core `c` is the reference's last stage at the kernel's own arguments. -/
theorem out_eq (c : Dev Cert.KernelIdeal.nD) :
    Cert.KernelIdeal.Run.out m c = val_main_v59 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) := by
  funext i
  obtain ⟨n, q, rfl⟩ : ∃ (n : Fin 100000) (q : Fin 128), i = ix2 n q := ⟨i 0, i 1, eq_ix2 i⟩
  rw [out_apply m c n q, ref_apply]
  refine congrArg (fun s : EReal => s + (m ((c.tc : Thread Cert.KernelIdeal.nD Cert.KernelIdeal.τ).loc Cert.KernelIdeal.main_arg3)) (ix1 q)) (Finset.sum_congr rfl fun k _ => ?_)
  rw [second_step, mul_comm (d _ n)]

end Cert.Bridge

end
-- ==== Proof.lean ====
/-
  Two rounds of normalised graph aggregation followed by a linear layer, in two arrangements.

  With `d n = deg(n)^(-1/2)` (guarded at zero) the reference aggregates with the edge weight `d(src) · d(dst)` inside the
  segment sum, twice, and then multiplies by the weights and adds the bias. The kernel's program pulls the factor `d(dst)`, which
  is constant on a destination's segment, out of the sum: it pre-scales the features by `d`, sums by destination, post-scales by
  `d`, and defers the last post-scale into the Pallas kernel, which computes `(s ⊙ d) · W + b` tile by tile on rows padded to a
  multiple of 2048. Over the extended reals the two agree for EVERY input, with no use of the finiteness precondition: the scalar
  that moves across the sum is nonnegative and not `⊤`, which is exactly what distributivity over the extended reals needs, and
  out-of-range edge endpoints are wrapped, clamped and dropped by the same index computations in both programs.

  The three frames are the generated ones (the reference's is its run with the result dropped), the idealization rewrote nothing,
  and the value claim joins the kernel program's run (Proof/KernelRun.lean) to the reference's run by Proof/Bridge.lean.
-/
import proofs.«116685_j34892314312745_2_alg».proof.Defs
import proofs.«116685_j34892314312745_2_alg».proof.Proof.Gen.Kernel
import proofs.«116685_j34892314312745_2_alg».proof.Proof.Gen.Kernel.Skeleton
import proofs.«116685_j34892314312745_2_alg».proof.Proof.Gen.Kernel.Launch
import proofs.«116685_j34892314312745_2_alg».proof.Proof.Gen.Kernel.Points
import proofs.«116685_j34892314312745_2_alg».proof.Proof.Gen.Kernel.Frame
import proofs.«116685_j34892314312745_2_alg».proof.Proof.Gen.KernelIdeal
import proofs.«116685_j34892314312745_2_alg».proof.Proof.Gen.KernelIdeal.Skeleton
import proofs.«116685_j34892314312745_2_alg».proof.Proof.Gen.KernelIdeal.Launch
import proofs.«116685_j34892314312745_2_alg».proof.Proof.Gen.KernelIdeal.Points
import proofs.«116685_j34892314312745_2_alg».proof.Proof.Gen.KernelIdeal.Frame
import proofs.«116685_j34892314312745_2_alg».proof.Proof.Gen.ReferenceIdeal
import proofs.«116685_j34892314312745_2_alg».proof.Proof.Gen.Pre_finite_inputs
import proofs.«116685_j34892314312745_2_alg».proof.Proof.RefRunP
import proofs.«116685_j34892314312745_2_alg».proof.Proof.RefReadP
import proofs.«116685_j34892314312745_2_alg».proof.Proof.KernelRun
import proofs.«116685_j34892314312745_2_alg».proof.Proof.Bridge
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- From memories agreeing on the arguments both programs end with the same result: the kernel program's run ends at `out`, the
    reference's at its last stage, and the two are one function of the arguments. -/
theorem algebraic : Cert.algebraic_KernelIdeal_ReferenceIdeal := by
  intro m ρ m' ρ' _ hagree
  refine ⟨fun c => Cert.KernelIdeal.Run.out m c, Cert.KernelIdeal.Run.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v59_eq, (hagree c).1, (hagree c).2.1, (hagree c).2.2.1, (hagree c).2.2.2]
  exact (Cert.Bridge.out_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
